-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8 : Shape := ⟨1, ![8]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x3 .f32) (main_arg1 : FVec F S8x4096x3 .f32) (main_arg2 : FVec F S8 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x4096x3 : Shape := ⟨3, ![8, 4096, 3]⟩
abbrev S8 : Shape := ⟨1, ![8]⟩
abbrev S8x3x4096 : Shape := ⟨3, ![8, 3, 4096]⟩
abbrev S8x1x1 : Shape := ⟨3, ![8, 1, 1]⟩
abbrev S1x4096x3 : Shape := ⟨3, ![1, 4096, 3]⟩
abbrev S1x3x4096 : Shape := ⟨3, ![1, 3, 4096]⟩
abbrev S1x1x1 : Shape := ⟨3, ![1, 1, 1]⟩
abbrev S3x4096 : Shape := ⟨2, ![3, 4096]⟩
abbrev S1x1 : Shape := ⟨2, ![1, 1]⟩
abbrev S1x512x3 : Shape := ⟨3, ![1, 512, 3]⟩
abbrev S512x3 : Shape := ⟨2, ![512, 3]⟩
abbrev S512x4096 : Shape := ⟨2, ![512, 4096]⟩
abbrev S512x1 : Shape := ⟨2, ![512, 1]⟩
abbrev S1x4096 : Shape := ⟨2, ![1, 4096]⟩
abbrev S512 : Shape := ⟨1, ![512]⟩
abbrev S1 : Shape := ⟨1, ![1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x3x4096, .f32⟩
  | .hbm, ⟨4, _⟩ => ⟨S8x1x1, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v13 : BitVec 32 := Scalar.muli arg5 c512_i32
  v13
def k0_off1 (k0_t1 : Fin k0_t1_loop.trips) : Fin 3 → Nat :=
  let c0_10 : Index := 0#32
  let c0_i32 : BitVec 32 := 0#32
  let c1_i32 : BitVec 32 := 1#32
  let arg5 : BitVec 32 := Scf.iv c0_i32 c1_i32 k0_t1
  let c512_i32 : BitVec 32 := 512#32
  let v13 : BitVec 32 := Scalar.muli arg5 c512_i32
  let v14 : BitVec 32 := v13
  let v15 : Index := Scalar.indexCast v14
  let c0_11 : Index := 0#32
  ![0, v15.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x4096x3_S8x3x4096_0_2_1 : S8x4096x3.Transposes [0, 2, 1] S8x3x4096
  shapeCasts_S8_S8x1x1 : S8.ShapeCasts S8x1x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  h_S1x512x3 : 0 < S1x512x3.numel
  shapeCasts_S1x512x3_S512x3 : S1x512x3.ShapeCasts S512x3
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S8x1x1_S8 : S8x1x1.ShapeCasts S8
  reducesTo_S8_S_d0 : S8.ReducesTo [0] S_
  h_S_ : 0 < S_.numel
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x3.size a ≤ S1x4096x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S8 : Shape := ⟨1, ![8]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/- The loss both programs compute, as one function of the argument arrays over the extended reals.

   Eight batches, each a pair of clouds of 4096 points in space. For a point `p` of the first cloud, `nearest` is the
   least squared distance from `p` to a point of the second cloud (a minimum over 4096 candidates, started from +∞).
   A batch's loss is the mean of `nearest` over the first cloud's points, weighed; the result is the mean over batches.

   The squared distance is spelt in two ways: as the sum over the three coordinates of the squared differences
   (`sqDist`), and expanded, |p|² + |q|² − 2 p·q (`sqDistExp`). The mean over the 4096 points is likewise spelt as
   a sum taken tile by tile (eight tiles of 512 rows, `carried`) times 1/4096, and as the whole sum divided by 4096. -/
import Idealize.ShloMosaic.PureOps.Ideal
import Idealize.ShloMosaic.Lib.ValueIdx

noncomputable section

open scoped BigOperators

namespace Cert.Chamfer

open Idealize.ShloMosaic Idealize.ShloMosaic.ValueIdx

/-- Eight clouds of 4096 points, three coordinates each. -/
abbrev Clouds := (⟨3, ![8, 4096, 3]⟩ : Shape).Idx → EReal
/-- One weight per batch. -/
abbrev Weights := (⟨1, ![8]⟩ : Shape).Idx → EReal

/-- Point `k` of cloud `b`, as its three coordinates. -/
def point (a : Clouds) (b : Fin 8) (k : Fin 4096) : Fin 3 → EReal := fun d => a (ix3 b k d)

/-- The squared distance of two points: the squared differences of the coordinates, added in order. -/
def sqDist (p q : Fin 3 → EReal) : EReal :=
  ((p 0 - q 0) * (p 0 - q 0) + (p 1 - q 1) * (p 1 - q 1)) + (p 2 - q 2) * (p 2 - q 2)

/-- The same, expanded: |p|² + |q|² − 2 p·q. -/
def sqDistExp (p q : Fin 3 → EReal) : EReal :=
  ((∑ d : Fin 3, p d * p d) + (∑ d : Fin 3, q d * q d)) - 2 * ∑ d : Fin 3, p d * q d

/-- The least squared distance from `p` to a point of `cloud`. -/
def nearest (p : Fin 3 → EReal) (cloud : Fin 4096 → Fin 3 → EReal) : EReal :=
  (Finset.univ : Finset (Fin 4096)).fold min ⊤ (fun j => sqDist p (cloud j))

/-- The same over the expanded squared distance. -/
def nearestExp (p : Fin 3 → EReal) (cloud : Fin 4096 → Fin 3 → EReal) : EReal :=
  (Finset.univ : Finset (Fin 4096)).fold min ⊤ (fun j => sqDistExp p (cloud j))

/-- Row `r` of tile `q`: the 4096 rows are eight tiles of 512. -/
def tileRow (q : Fin 8) (r : Fin 512) : Fin 4096 := ⟨512 * q.val + r.val, by omega⟩

/-- The sum of `nearest` over the 512 rows of tile `q` of batch `b`. -/
def tileSum (a o : Clouds) (b q : Fin 8) : EReal :=
  ∑ r : Fin 512, nearest (point a b (tileRow q r)) (point o b)

/-- The sum of the first `n` tiles, added one tile at a time from zero. -/
def carried (a o : Clouds) (b : Fin 8) : ℕ → EReal
  | 0 => 0
  | n + 1 => if h : n < 8 then carried a o b n + tileSum a o b ⟨n, h⟩ else carried a o b n

/-- A batch's weighed loss: the eight tiles' sum times 1/4096, times the weight. -/
def batchLoss (a o : Clouds) (w : Weights) (b : Fin 8) : EReal :=
  (carried a o b 8 * ((1 / 4096 : ℝ) : EReal)) * w (ix1 b)

/-- The loss: the mean over the eight batches (the divisor is the word of `8.0`, the same in both programs). -/
def loss (a o : Clouds) (w : Weights) : EReal :=
  Ideal.div (∑ b : Fin 8, batchLoss a o w b) (Ideal.ofBits .f32 0x41000000#32)

/-- A batch's weighed loss over the expanded squared distance, the mean as a quotient by 4096. -/
def batchLossExp (a o : Clouds) (w : Weights) (b : Fin 8) : EReal :=
  Ideal.div (∑ k : Fin 4096, nearestExp (point a b k) (point o b)) ((4096 : ℝ) : EReal) * w (ix1 b)

/-- The loss in that spelling. -/
def lossExp (a o : Clouds) (w : Weights) : EReal :=
  Ideal.div (∑ b : Fin 8, batchLossExp a o w b) (Ideal.ofBits .f32 0x41000000#32)

end Cert.Chamfer

end
-- ==== Proof.Algebra.lean ====
/- The two spellings of the loss agree on real coordinates.

   For points with real coordinates the expanded squared distance |p|² + |q|² − 2 p·q equals the sum of the squared
   differences (an identity of real polynomials; over the extended reals it needs the coordinates finite, because
   subtraction and distributivity fail at ±∞). Hence the two minima over a cloud agree. The sum taken tile by tile
   is the sum over all 4096 rows, because (q, r) ↦ 512 q + r is a bijection from 8 × 512 onto 4096. The quotient by
   4096 is the product with 1/4096 for every extended real. -/
import proofs.«170627_j24790551233433_2_alg».proof.Proof.Spec
import Mathlib.Algebra.BigOperators.Fin
import Mathlib.Data.Finset.Fold
import Mathlib.Tactic.Ring
import Mathlib.Tactic.NormNum

noncomputable section

open scoped BigOperators

namespace Cert.Chamfer

open Idealize.ShloMosaic Idealize.ShloMosaic.ValueIdx

/-- On real coordinates the expanded squared distance is the squared distance. -/
theorem sqDistExp_eq_sqDist (p q : Fin 3 → EReal)
    (hp : ∀ d, ∃ r : ℝ, p d = (r : EReal)) (hq : ∀ d, ∃ r : ℝ, q d = (r : EReal)) :
    sqDistExp p q = sqDist p q := by
  obtain ⟨p0, hp0⟩ := hp 0
  obtain ⟨p1, hp1⟩ := hp 1
  obtain ⟨p2, hp2⟩ := hp 2
  obtain ⟨q0, hq0⟩ := hq 0
  obtain ⟨q1, hq1⟩ := hq 1
  obtain ⟨q2, hq2⟩ := hq 2
  have h2 : (2 : EReal) = ((2 : ℝ) : EReal) := rfl
  simp only [sqDistExp, sqDist, Fin.sum_univ_three, hp0, hp1, hp2, hq0, hq1, hq2, h2]
  simp only [← EReal.coe_mul, ← EReal.coe_add, ← EReal.coe_sub]
  congr 1
  ring

/-- The two minima over a cloud agree when the point and the cloud have real coordinates. -/
theorem nearestExp_eq_nearest (p : Fin 3 → EReal) (cloud : Fin 4096 → Fin 3 → EReal)
    (hp : ∀ d, ∃ r : ℝ, p d = (r : EReal)) (hc : ∀ j d, ∃ r : ℝ, cloud j d = (r : EReal)) :
    nearestExp p cloud = nearest p cloud := by
  unfold nearestExp nearest
  exact Finset.fold_congr (fun j _ => sqDistExp_eq_sqDist p (cloud j) hp (hc j))

/-- The rows as eight tiles of 512: (q, r) ↦ 512 q + r is a bijection onto the 4096 rows. -/
def tileEquiv : Fin 8 × Fin 512 ≃ Fin 4096 where
  toFun x := tileRow x.1 x.2
  invFun k := (⟨k.val / 512, by omega⟩, ⟨k.val % 512, by omega⟩)
  left_inv := by
    rintro ⟨q, r⟩
    refine Prod.ext (Fin.ext ?_) (Fin.ext ?_)
    · show (512 * q.val + r.val) / 512 = q.val
      omega
    · show (512 * q.val + r.val) % 512 = r.val
      omega
  right_inv := by
    intro k
    refine Fin.ext ?_
    show 512 * (k.val / 512) + k.val % 512 = k.val
    omega

/-- A sum over the 4096 rows, taken tile by tile. -/
theorem sum_tiles {M : Type*} [AddCommMonoid M] (f : Fin 4096 → M) :
    ∑ q : Fin 8, ∑ r : Fin 512, f (tileRow q r) = ∑ k : Fin 4096, f k := by
  rw [← Fintype.sum_prod_type']
  exact Fintype.sum_equiv tileEquiv _ _ (fun _ => rfl)

/-- The eight tiles' sum, added one at a time from zero, is the sum of the eight tile sums. -/
theorem carried_eq_sum (a o : Clouds) (b : Fin 8) :
    carried a o b 8 = ∑ q : Fin 8, tileSum a o b q := by
  simp [carried, Fin.sum_univ_eight]

/-- The eight tiles' sum is the sum of nearest over all 4096 rows. -/
theorem carried_eight (a o : Clouds) (b : Fin 8) :
    carried a o b 8 = ∑ k : Fin 4096, nearest (point a b k) (point o b) := by
  rw [carried_eq_sum]
  unfold tileSum
  exact sum_tiles (fun k => nearest (point a b k) (point o b))

/-- The quotient by 4096 is the product with 1/4096, for every extended real. -/
theorem div_4096 (x : EReal) : Ideal.div x ((4096 : ℝ) : EReal) = x * ((1 / 4096 : ℝ) : EReal) :=
  Ideal.div_coe (by norm_num) x

/-- The two spellings of the loss agree on real coordinates. -/
theorem lossExp_eq_loss (a o : Clouds) (w : Weights)
    (ha : ∀ i, ∃ r : ℝ, a i = (r : EReal)) (ho : ∀ i, ∃ r : ℝ, o i = (r : EReal)) :
    lossExp a o w = loss a o w := by
  unfold lossExp loss
  congr 1
  refine Finset.sum_congr rfl (fun b _ => ?_)
  unfold batchLossExp batchLoss
  rw [carried_eight, div_4096]
  congr 2
  refine Finset.sum_congr rfl (fun k _ => ?_)
  exact nearestExp_eq_nearest _ _ (fun d => ha _) (fun j d => ho _)

end Cert.Chamfer

end
-- ==== Proof.Finite.lean ====
/- Finiteness out of the precondition: an array whose every entry has absolute value below +∞ holds reals only. -/
import proofs.«170627_j24790551233433_2_alg».proof.Pre_finite_inputs
import proofs.«170627_j24790551233433_2_alg».proof.Proof.Gen.Pre_finite_inputs
import Idealize.ShloMosaic.Lib.ReduceAll
import Idealize.ShloMosaic.Lib.ValueIdx

noncomputable section

namespace Cert.Chamfer.Finite

open Idealize.ShloMosaic

/-- The shape of a scalar has one index. -/
instance : Subsingleton Cert.Pre_finite_inputs.S_.Idx := ⟨fun a b => funext fun d => d.elim0⟩

/-- An extended real whose absolute value compares below the word of +∞ is a real:
    |⊥| = |⊤| = ⊤, which is not below ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hb : Ideal.ofBits .f32 0x7F800000#32 = (⊤ : EReal) := by simp [Ideal.ofBits, Ideal.ieee]
  have h' : Ideal.cmp .olt (max x (-x)) (Ideal.ofBits .f32 0x7F800000#32) = 1#1 := h
  rw [hb] at h'
  induction x using EReal.rec with
  | bot =>
    exfalso
    simp [Ideal.cmp] at h'
  | coe r => exact ⟨r, rfl⟩
  | top =>
    exfalso
    simp [Ideal.cmp] at h'

/-- The precondition's first two conjuncts, read back: every coordinate of either cloud is a real. -/
theorem real_of_pre [Cert.Pre_finite_inputs.Facts]
    (x0 x1 : (⟨Cert.Pre_finite_inputs.S8x4096x3, .f32⟩ : BufTy).Contents (Elt Ideal)) (x2 : (⟨Cert.Pre_finite_inputs.S8, .f32⟩ : BufTy).Contents (Elt Ideal))
    (h : Cert.Pre_finite_inputs.fn (F := Ideal) x0 x1 x2 = (fun _ => 1#1)) :
    (∀ i, ∃ r : ℝ, x0 i = (r : EReal)) ∧ (∀ i, ∃ r : ℝ, x1 i = (r : EReal)) := by
  have e := congrFun h ValueIdx.ix0
  dsimp only [Cert.Pre_finite_inputs.fn] at e
  obtain ⟨e01, -⟩ := IntOp.andi_eq_one.1 (show IntOp.andi _ _ = 1#1 from e)
  obtain ⟨e0, e1⟩ := IntOp.andi_eq_one.1 (show IntOp.andi _ _ = 1#1 from e01)
  exact ⟨fun i => real_of_abs_lt (x0 i) (Host.reduce_andi_all _ _ _ _ _ e0 i),
    fun i => real_of_abs_lt (x1 i) (Host.reduce_andi_all _ _ _ _ _ e1 i)⟩

end Cert.Chamfer.Finite

end
-- ==== Proof.Consts.lean ====
/- The float constants the two programs spell, as the extended reals their words denote. -/
import Idealize.ShloMosaic.PureOps.Ideal

noncomputable section

namespace Cert.Chamfer.Consts

open Idealize.ShloMosaic

/-- The word of `+0.0` denotes 0. -/
theorem ofBits_zero : Ideal.ofBits .f32 0x00000000#32 = 0 := by
  simp [Ideal.ofBits, Ideal.ieee]

/-- The word of `2.0` denotes 2. -/
theorem ofBits_two : Ideal.ofBits .f32 0x40000000#32 = ((2 : ℝ) : EReal) := by
  simp [Ideal.ofBits, Ideal.ieee, -EReal.coe_mul]; norm_num

/-- The word of `4096.0` denotes 4096. -/
theorem ofBits_4096 : Ideal.ofBits .f32 0x45800000#32 = ((4096 : ℝ) : EReal) := by
  simp [Ideal.ofBits, Ideal.ieee, -EReal.coe_mul]; norm_num

/-- The word `0x39800000` denotes 2⁻¹² = 1/4096 exactly. -/
theorem ofBits_inv4096 : Ideal.ofBits .f32 0x39800000#32 = ((1 / 4096 : ℝ) : EReal) := by
  simp [Ideal.ofBits, Ideal.ieee, -EReal.coe_mul]; norm_num

/-- The word of `+∞` denotes ⊤. -/
theorem ofBits_inf : Ideal.ofBits .f32 0x7F800000#32 = (⊤ : EReal) := by
  simp [Ideal.ofBits, Ideal.ieee]

end Cert.Chamfer.Consts

end
-- ==== Proof.RefValue.lean ====
/- The reference program's result, read back operation by operation, is the loss in its expanded spelling. -/
import proofs.«170627_j24790551233433_2_alg».proof.Proof.Gen.ReferenceIdeal.Read
import proofs.«170627_j24790551233433_2_alg».proof.Proof.Spec
import proofs.«170627_j24790551233433_2_alg».proof.Proof.Consts
import Idealize.ShloMosaic.Lib.ValueIdx
import Idealize.ShloMosaic.PureOps.Ideal.Laws
import Idealize.ShloMosaic.PureOps.Reduce

noncomputable section

open scoped BigOperators

namespace Cert.Chamfer.Ref

open Cert.ReferenceIdeal Cert.ReferenceIdeal.Gen Cert.ReferenceIdeal.Read
open Idealize.ShloMosaic Idealize.ShloMosaic.ValueIdx
open Cert.Chamfer

/-- The squared norms' index: coordinate d of point k of cloud b, reached through the two broadcasts of the first norm. -/
theorem idx_norm0 (b : Fin 8) (k j : Fin 4096) (d : Fin 3) :
    idx_main_v1 (idx_main_v5 (idx_main_v7 (ix3 b k j))) d = ix3 b k d :=
  funext fun a => Fin.ext (by match a with | ⟨0, _⟩ => rfl | ⟨1, _⟩ => rfl | ⟨2, _⟩ => rfl)

/-- The same for the second norm: coordinate d of point j of cloud b. -/
theorem idx_norm1 (b : Fin 8) (k j : Fin 4096) (d : Fin 3) :
    idx_main_v3 (idx_main_v6 (idx_main_v8 (ix3 b k j))) d = ix3 b j d :=
  funext fun a => Fin.ext (by match a with | ⟨0, _⟩ => rfl | ⟨1, _⟩ => rfl | ⟨2, _⟩ => rfl)

/-- The inner product's left index. -/
theorem idx_dotl (b : Fin 8) (k j : Fin 4096) (d : Fin 3) :
    lidx_main_v4 (ix3 b k j) d = ix3 b k d :=
  funext fun a => Fin.ext (by match a with | ⟨0, _⟩ => rfl | ⟨1, _⟩ => rfl | ⟨2, _⟩ => rfl)

/-- The inner product's right index. -/
theorem idx_dotr (b : Fin 8) (k j : Fin 4096) (d : Fin 3) :
    ridx_main_v4 (ix3 b k j) d = ix3 b j d :=
  funext fun a => Fin.ext (by match a with | ⟨0, _⟩ => rfl | ⟨1, _⟩ => rfl | ⟨2, _⟩ => rfl)

/-- The table of squared distances at (b, k, j) is the expanded squared distance of point k of the first cloud and
    point j of the second. -/
theorem dist_apply (x0 x1 : (⟨S8x4096x3, .f32⟩ : BufTy).Contents (Elt Ideal)) (b : Fin 8) (k j : Fin 4096) :
    val_main_v12 (F := Ideal) x0 x1 (ix3 b k j) = sqDistExp (point x0 b k) (point x1 b j) := by
  rw [val_main_v12_apply, val_main_v9_apply, val_main_v11_apply, val_main_v7_apply, val_main_v5_apply, val_main_v1_apply,
    val_main_v8_apply, val_main_v6_apply, val_main_v3_apply, val_main_v10_apply, val_main_cst_1_apply, val_main_v4_apply,
    val_main_cst_apply, val_main_cst_0_apply]
  simp only [val_main_v0_apply, val_main_v2_apply, idx_norm0, idx_norm1, idx_dotl, idx_dotr]
  simp only [Ideal.ofBits_def, Ideal.addf_def, Ideal.subf_def, Ideal.mulf_def, Consts.ofBits_zero, Consts.ofBits_two, zero_add]
  have h2 : ((2 : ℝ) : EReal) = 2 := by norm_cast
  rw [h2]
  rfl

/-- The shape fact naming the index inserted on the third axis. -/
theorem reduces_min : S8x4096x4096.Reduces [2] S8x4096 := by decide

/-- Row (b, k) with j inserted on the third axis is the index (b, k, j). -/
theorem lift_min (b : Fin 8) (k j : Fin 4096) : reduces_min.lift (ix2 b k) j = ix3 b k j :=
  funext fun a => Fin.ext (by match a with | ⟨0, _⟩ => rfl | ⟨1, _⟩ => rfl | ⟨2, _⟩ => rfl)

/-- The minimum over the third axis, from +∞: at (b, k) the least expanded squared distance from point k of the first
    cloud to a point of the second. -/
theorem rowmin_apply (x0 x1 : (⟨S8x4096x3, .f32⟩ : BufTy).Contents (Elt Ideal)) (b : Fin 8) (k : Fin 4096) :
    val_main_v13 (F := Ideal) x0 x1 (ix2 b k) = nearestExp (point x0 b k) (point x1 b) := by
  unfold val_main_v13
  refine (Host.reduce_eq_fold_single (FloatOps.minimumf (F := Ideal) (φ := .f32)) _ _ reducesTo_S8x4096x4096_S8x4096_d2
    reduces_min h_S_ (ix2 b k)).trans ?_
  rw [val_main_cst_2_apply]
  unfold nearestExp
  show (Finset.univ : Finset (Fin 4096)).fold min (Ideal.ofBits .f32 0x7F800000#32) _ = _
  rw [Consts.ofBits_inf]
  refine Finset.fold_congr (fun j _ => ?_)
  show val_main_v12 (F := Ideal) x0 x1 (reduces_min.lift (ix2 b k) j) = _
  rw [lift_min, dist_apply]

/-- Row k of batch b, as the index the sum over the rows reads. -/
theorem idx_rowsum (b : Fin 8) (k : Fin 4096) : idx_main_v14 (ix1 b) k = ix2 b k :=
  funext fun a => Fin.ext (by match a with | ⟨0, _⟩ => rfl | ⟨1, _⟩ => rfl)

/-- The weighed mean of batch b: the rows' minima added from zero, divided by 4096, times the weight. -/
theorem batch_apply (x0 x1 : (⟨S8x4096x3, .f32⟩ : BufTy).Contents (Elt Ideal)) (x2 : (⟨S8, .f32⟩ : BufTy).Contents (Elt Ideal))
    (b : Fin 8) :
    val_main_v21 (F := Ideal) x0 x1 x2 (ix1 b) = batchLossExp x0 x1 x2 b := by
  rw [val_main_v21_apply, val_main_v16_apply, val_main_v14_apply, val_main_v15_apply, val_main_cst_4_apply,
    val_main_cst_3_apply]
  simp only [idx_rowsum, rowmin_apply, Ideal.ofBits_def, Ideal.hostDivf_def, Ideal.mulf_def, Consts.ofBits_zero,
    Consts.ofBits_4096, zero_add]
  rfl

/-- A sum over the indices of the batch axis is the sum over the eight batches. -/
theorem sum_batches (f : S8.Idx → EReal) : ∑ i, f i = ∑ b : Fin 8, f (ix1 b) :=
  (Equiv.sum_comp (⟨ix1, fun i => i 0, fun _ => rfl, fun i => (eq_ix1 i).symm⟩ : Fin 8 ≃ S8.Idx) f).symm

/-- The reference's result: the batches' weighed means added from zero, divided by the word of 8.0. -/
theorem result_eq (x0 x1 : (⟨S8x4096x3, .f32⟩ : BufTy).Contents (Elt Ideal)) (x2 : (⟨S8, .f32⟩ : BufTy).Contents (Elt Ideal)) :
    Cert.ReferenceIdeal.Read.val_main_v23 (F := Ideal) x0 x1 x2 = fun _ => Cert.Chamfer.lossExp x0 x1 x2 := by
  funext i
  rw [val_main_v23_apply, val_main_v22_apply, val_main_cst_8_apply, val_main_cst_9_apply, sum_batches]
  simp only [batch_apply, Ideal.ofBits_def, Ideal.hostDivf_def, Consts.ofBits_zero, zero_add]
  rfl

end Cert.Chamfer.Ref

end
-- ==== Proof.KernelBody.lean ====
/- What the kernel's body leaves in its output block, as a plain function of its three input blocks.

   The body walks the first cloud's 4096 rows in eight tiles of 512. It carries one number: before tile `n` the
   carried value is the start value with the first `n` tiles' contributions added, one tile at a time (`carriedAt`).
   After the last tile the carried value is scaled and weighed, and that is the one entry the body stores. -/
import proofs.«170627_j24790551233433_2_alg».proof.Proof.Gen.KernelIdeal.Frame
import Idealize.ShloMosaic.Lib.Pipeline.Value

noncomputable section

namespace Cert.Chamfer.Body

open Cert.KernelIdeal Cert.KernelIdeal.Gen Idealize.ShloMosaic Idealize.ShloMosaic.TcCoe Idealize.SL.Sem

variable {F : FTy → Type} [FloatOps F]

/-- The 512 rows of tile `k` of a block of the first cloud. -/
def tile (x0 : Vec F S1x4096x3 .f32) (k : Fin k0_t1_loop.trips) : Vec F S1x512x3 .f32 :=
  View.ld x0 (Rect.unit (s := S1x4096x3) (k0_off1 k) S1x512x3.size (k0_off1_inb k))

/-- The value carried into tile `n`: from `init`, each earlier tile's step applied in order. -/
def carriedAt (x0 : Vec F S1x4096x3 .f32) (x1 : Vec F S1x3x4096 .f32) (init : FVec F S1x1 .f32) : ℕ → FVec F S1x1 .f32
  | 0 => init
  | n + 1 => if h : n < k0_t1_loop.trips then k0_pay2 x1 (carriedAt x0 x1 init n) (tile x0 ⟨n, h⟩) else carriedAt x0 x1 init n

/-- One trip of the loop yields the tile's step of the carried value: the trip's definition, opened once. -/
theorem tripR_eq (𝒱 : Variants) (c : Dev nD) (bd : Option 𝒱.V) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x1 .f32) (harg3 : arg3.IsWhole) (arg4 : Memref sig .tc .vmem S1x1x1 .f32) (harg4 : arg4.IsWhole) (v0 : Vec F S1x3x4096 .f32) (x0 : Vec F S1x4096x3 .f32) (k : Fin k0_t1_loop.trips) (acc : FVec F S1x1 .f32) :
    tripR_k0_t1 (F := F) 𝒱 c bd i arg1 harg1 arg2 harg2 arg3 harg3 arg4 harg4 v0 (harg1.unread x0) k acc
      = k0_pay2 v0 acc (tile x0 k) := by
  unfold tripR_k0_t1 trip_k0_t1 tile
  show k0_pay2 v0 acc (View.readAt (Elt F) arg1.view (Rect.unit (s := S1x4096x3) (k0_off1 k) S1x512x3.size (k0_off1_inb k)).toLoadRect (harg1.unread x0)) = _
  rw [View.readAt_eq_ld, harg1.read_unread]

/-- The loop's carried value before trip `n` is `carriedAt`. -/
theorem st_eq (𝒱 : Variants) (c : Dev nD) (bd : Option 𝒱.V) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x1 .f32) (harg3 : arg3.IsWhole) (arg4 : Memref sig .tc .vmem S1x1x1 .f32) (harg4 : arg4.IsWhole) (v0 : Vec F S1x3x4096 .f32) (x0 : Vec F S1x4096x3 .f32) (init : FVec F S1x1 .f32) (n : ℕ) :
    st_k0_t1 (F := F) 𝒱 c bd i arg1 harg1 arg2 harg2 arg3 harg3 arg4 harg4 v0 (harg1.unread x0) init n
      = carriedAt x0 v0 init n := by
  induction n with
  | zero => rfl
  | succ n ih =>
    rw [st_k0_t1.eq_2, carriedAt]
    unfold st_k0_t1Step
    by_cases h : n < k0_t1_loop.trips
    · rw [dif_pos h, dif_pos h, tripR_eq, ih]
    · rw [dif_neg h, dif_neg h, ih]

/-- The origin of a rank-3 block. -/
theorem origin3 : (![0, 0, 0] : Fin 3 → Nat) = fun _ => 0 := by
  funext a; fin_cases a <;> rfl

/-- What the body leaves in the output block: the carried value after the last tile, scaled and weighed. -/
theorem out_eq (c : Dev nD) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x1 .f32) (harg3 : arg3.IsWhole) (arg4 : Memref sig .tc .vmem S1x1x1 .f32) (harg4 : arg4.IsWhole)
    (x0 : Vec F S1x4096x3 .f32) (x1 : Vec F S1x3x4096 .f32) (x2 : Vec F S1x1x1 .f32) :
    out0_A_3 (F := F) c i arg1 harg1 arg2 harg2 arg3 harg3 arg4 harg4 x0 x1 x2
      = k0_pay3 (carriedAt x0 x1 (k0_pay1 (F := F)) k0_t1_loop.trips) x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero origin3, st_eq]
  simp only [View.readAt_eq_ld, harg2.read_unread, harg3.read_unread, View.ld_unit_zero (S := S1x3x4096) origin3,
    View.ld_unit_zero (S := S1x1x1) origin3]

end Cert.Chamfer.Body

end
-- ==== Proof.KernelBlocks.lean ====
/- From blocks to arrays. The grid has eight points, one per batch. At point `t` each window's block is the slab of
   its array at batch `t`: the first cloud's 4096×3 slab, the transposed second cloud's 3×4096 slab, one weight, and
   the one output entry. So an entry of an input block is the array's entry in batch `t`, and the output array, whose
   eight one-entry blocks tile it, ends holding at batch `b` whatever the body left at point `b`. -/
import proofs.«170627_j24790551233433_2_alg».proof.Proof.KernelBody
import Idealize.ShloMosaic.Lib.ValueIdx

noncomputable section

namespace Cert.Chamfer.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The batch a grid point works on. -/
def batchOf (t : Fin cfg0.N) : Fin 8 := ⟨t.val, lt_of_lt_of_eq t.isLt N_0⟩

/-- The grid point that works on a batch. -/
def pointOf (b : Fin 8) : Fin cfg0.N := ⟨b.val, lt_of_lt_of_eq b.isLt N_0.symm⟩

theorem batchOf_pointOf (b : Fin 8) : batchOf (pointOf b) = b := rfl

/-- Every window's block index at point `t` is (t, 0, 0): the index maps, decided over the grid. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- Row `k`, coordinate `d` of the first cloud's block at point `t` is that entry of batch `t`. -/
theorem iblk0_apply (c : Dev nD) (t : Fin cfg0.N) (k : Fin 4096) (d : Fin 3) :
    (iblk m c 0 t : S1x4096x3.Idx → Elt F .f32) (ix3 (0 : Fin 1) k d)
      = (V m c main_arg0 : S8x4096x3.Idx → Elt F .f32) (ix3 (batchOf t) k d) := by
  obtain ⟨⟨e0, e1, e2⟩, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 4096 + 1 * k.val = k.val; omega
  | ⟨2, _⟩ => show win0_0.index t (2 : Fin 3) * 3 + 1 * d.val = d.val; omega

/-- Coordinate `d`, column `j` of the transposed second cloud's block at point `t` is that entry of batch `t`. -/
theorem iblk1_apply (c : Dev nD) (t : Fin cfg0.N) (d : Fin 3) (j : Fin 4096) :
    (iblk m c 1 t : S1x3x4096.Idx → Elt F .f32) (ix3 (0 : Fin 1) d j)
      = (V m c main_v0 : S8x3x4096.Idx → Elt F .f32) (ix3 (batchOf t) d j) := by
  obtain ⟨-, ⟨e0, e1, e2⟩, -⟩ := idx_facts t
  unfold iblk
  rw [View.read_apply]
  show V m c main_v0 _ = V m c main_v0 _
  congr 1
  funext a
  apply Fin.ext
  match a with
  | ⟨0, _⟩ => show win0_1.index t (0 : Fin 3) * 1 + 1 * 0 = t.val; omega
  | ⟨1, _⟩ => show win0_1.index t (1 : Fin 3) * 3 + 1 * d.val = d.val; omega
  | ⟨2, _⟩ => show win0_1.index t (2 : Fin 3) * 4096 + 1 * j.val = j.val; omega

/-- The one entry of the weights' block at point `t` is batch `t`'s weight. -/
theorem iblk2_apply (c : Dev nD) (t : Fin cfg0.N) :
    (iblk m c 2 t : S1x1x1.Idx → Elt F .f32) (ix3 (0 : Fin 1) (0 : Fin 1) (0 : Fin 1))
      = (V m c main_v1 : S8x1x1.Idx → Elt F .f32) (ix3 (batchOf t) (0 : Fin 1) (0 : Fin 1)) := by
  obtain ⟨-, -, ⟨e0, e1, e2⟩, -⟩ := idx_facts t
  unfold iblk
  rw [View.read_apply]
  show V m c main_v1 _ = V m c main_v1 _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 1 + 1 * 0 = 0; omega

/-- Row `r` of tile `k` of a block is row 512 k + r of the block. -/
theorem tile_apply (x0 : Vec F S1x4096x3 .f32) (k : Fin k0_t1_loop.trips) (r : Fin 512) (d : Fin 3)
    (h : 512 * k.val + r.val < 4096) :
    Body.tile x0 k (ix3 (0 : Fin 1) r d) = x0 (ix3 (0 : Fin 1) (⟨512 * k.val + r.val, h⟩ : Fin 4096) d) := by
  unfold Body.tile
  show x0 _ = x0 _
  congr 1
  funext a
  apply Fin.ext
  have e := k0_off1_eq k
  match a with
  | ⟨0, _⟩ => show k0_off1 k 0 + 1 * 0 = 0; rw [e]; rfl
  | ⟨1, _⟩ => show k0_off1 k 1 + 1 * r.val = 512 * k.val + r.val; rw [e]; show 512 * k.val + 1 * r.val = _; omega
  | ⟨2, _⟩ => show k0_off1 k 2 + 1 * d.val = d.val; rw [e]; show 0 + 1 * d.val = _; omega

/-- An index of the output array is in point `t`'s block iff its batch coordinate is `t`. -/
theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- What point `t` writes back, when the body leaves there the one entry `g (batch of t)`: block `t` of the array
    whose entry in batch `b` is `g b`. -/
theorem flushed_eq (c : Dev nD) (g : Fin 8 → Elt F .f32)
    (hout : ∀ t : Fin cfg0.N, outsAt0 m c t = fun _ => g (batchOf t)) (t : Fin cfg0.N) :
    (dats m 0 c).flushed 3 t
      = ((cfg0.win 3).blk t).view.read (Elt F) (fun i : S8x1x1.Idx => g (i 0)) := by
  obtain ⟨-, -, -, ⟨e0, e1, e2⟩⟩ := idx_facts t
  show (cfg0.win 3).cut (grid0.coords t) ((dats m 0 c).after 3 t) = _
  rw [after0_3, hout]
  funext y
  rw [View.read_apply]
  show g (batchOf t) = g _
  congr 1
  apply Fin.ext
  show t.val = win0_3.index t (0 : Fin 3) * 1 + 1 * (y 0).val
  have hy : (y 0).val < 1 := (y 0).isLt
  omega

/-- The output array after the run holds, in batch `b`, what the body left at point `b`. -/
theorem final (c : Dev nD) (g : Fin 8 → Elt F .f32)
    (hout : ∀ t : Fin cfg0.N, outsAt0 m c t = fun _ => g (batchOf t)) :
    (dats m 0 c).arrAt 3 cfg0.N = (fun i : S8x1x1.Idx => g (i 0)) :=
  (dats m 0 c).arrAt_eq_of_cover 3 _ (fun t _ => flushed_eq m c g hout t) fun i => by
    have hi0 : (i 0).val < 8 := (i 0).isLt
    have hi1 : (i 1).val < 1 := (i 1).isLt
    have hi2 : (i 2).val < 1 := (i 2).isLt
    refine ⟨pointOf ⟨(i 0).val, hi0⟩, flush0_3 _, ?_⟩
    obtain ⟨-, -, -, ⟨e0, e1, e2⟩⟩ := idx_facts (pointOf ⟨(i 0).val, hi0⟩)
    rw [mem_blk3]
    intro a
    match a with
    | ⟨0, _⟩ => show win0_3.index _ (0 : Fin 3) * 1 ≤ (i 0).val ∧ (i 0).val < win0_3.index _ (0 : Fin 3) * 1 + 1
                rw [e0]; show (i 0).val * 1 ≤ (i 0).val ∧ (i 0).val < (i 0).val * 1 + 1; omega
    | ⟨1, _⟩ => show win0_3.index _ (1 : Fin 3) * 1 ≤ (i 1).val ∧ (i 1).val < win0_3.index _ (1 : Fin 3) * 1 + 1
                rw [e1]; omega
    | ⟨2, _⟩ => show win0_3.index _ (2 : Fin 3) * 1 ≤ (i 2).val ∧ (i 2).val < win0_3.index _ (2 : Fin 3) * 1 + 1
                rw [e2]; omega

end Cert.Chamfer.Blocks

end
-- ==== Proof.Payload.lean ====
/- The kernel body's three pure payloads read at an index, over the extended reals.

   The loop's initial carry is the zero array; one trip adds to the carry the sum, over the 512 rows of the
   tile it loaded, of the least squared distance from that row's point to a point of the second cloud; the
   stored value is the carry times 1/4096 times the weight. -/
import proofs.«170627_j24790551233433_2_alg».proof.Proof.Gen.KernelIdeal.Skeleton
import proofs.«170627_j24790551233433_2_alg».proof.Proof.Spec
import proofs.«170627_j24790551233433_2_alg».proof.Proof.Consts
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.Chamfer.Payload

open Cert.KernelIdeal Cert.KernelIdeal.Gen Idealize.ShloMosaic Idealize.ShloMosaic.ValueIdx

/-! ## Two column layouts read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The initial carry and the stored value -/

/-- The loop's initial carry is zero at its one index. -/
theorem pay1_apply (i : S1x1.Idx) : k0_pay1 (F := Ideal) i = 0 := by
  show Ideal.ofBits .f32 0x00000000#32 = 0
  exact Consts.ofBits_zero

/-- The stored value: the carry times 1/4096, times the weight. -/
theorem pay3_apply (v4 : FVec Ideal S1x1 .f32) (v7 : Vec Ideal S1x1x1 .f32) (i : S1x1x1.Idx) :
    k0_pay3 (F := Ideal) v4 v7 i = (v4 (ix2 0 0) * ((1 / 4096 : ℝ) : EReal)) * v7 (ix3 0 0 0) := by
  obtain ⟨a, b, c, rfl⟩ : ∃ (a b c : Fin 1), i = ix3 a b c := ⟨i 0, i 1, i 2, eq_ix3 i⟩
  obtain rfl : b = 0 := Subsingleton.elim _ _
  obtain rfl : c = 0 := Subsingleton.elim _ _
  unfold k0_pay3
  refine (shapeCast_ab_1ab_apply _ _ a 0 0).trans ?_
  rw [mulf_apply, mulf_apply, broadcast_apply]
  rw [shapeCast_1ab_ab_apply]
  show v4 (ix2 0 0) * Ideal.ofBits .f32 0x39800000#32 * v7 (ix3 0 0 0) = _
  rw [Consts.ofBits_inv4096]

/-! ## One trip's payload -/

/-- The `[512, 4096]` array one trip accumulates from the zero array: for each of the three coordinates, the tile's
    column of that coordinate spread along the lanes, minus the second cloud's row of that coordinate spread along the
    rows, squared. -/
def sqArr (v0 : Vec Ideal S1x3x4096 .f32) (v16 : Vec Ideal S1x512x3 .f32) : FVec Ideal S512x4096 .f32 :=
  have v1 : FVec Ideal S3x4096 .f32 := shapeCast S3x4096 v0 shapeCasts_S1x3x4096_S3x4096
  have v17 : FVec Ideal S512x3 .f32 := shapeCast S512x3 v16 shapeCasts_S1x512x3_S512x3
  have cst_12 : Ideal .f32 := Scalar.ofBits .f32 0x00000000#32
  have v18 : FVec Ideal S512x4096 .f32 := broadcast S512x4096 cst_12
  have v19 : FVec Ideal S512x1 .f32 := extractStridedSlice S512x1 ![0, 0] v17 slices_S512x3_o0_0_S512x1
  have v20 : FVec Ideal S1x4096 .f32 := extractStridedSlice S1x4096 ![0, 0] v1 slices_S3x4096_o0_0_S1x4096
  have v21 : FVec Ideal S512x4096 .f32 := broadcastTo S512x4096 v19 broadcasts_S512x1_S512x4096
  have v22 : FVec Ideal S512x4096 .f32 := broadcastTo S512x4096 v20 broadcasts_S1x4096_S512x4096
  have v23 : FVec Ideal S512x4096 .f32 := subf v21 v22
  have v24 : FVec Ideal S512x4096 .f32 := mulf v23 v23
  have v25 : FVec Ideal S512x4096 .f32 := addf v18 v24
  have v26 : FVec Ideal S512x1 .f32 := extractStridedSlice S512x1 ![0, 1] v17 slices_S512x3_o0_1_S512x1
  have v27 : FVec Ideal S1x4096 .f32 := extractStridedSlice S1x4096 ![1, 0] v1 slices_S3x4096_o1_0_S1x4096
  have v28 : FVec Ideal S512x4096 .f32 := broadcastTo S512x4096 v26 broadcasts_S512x1_S512x4096
  have v29 : FVec Ideal S512x4096 .f32 := broadcastTo S512x4096 v27 broadcasts_S1x4096_S512x4096
  have v30 : FVec Ideal S512x4096 .f32 := subf v28 v29
  have v31 : FVec Ideal S512x4096 .f32 := mulf v30 v30
  have v32 : FVec Ideal S512x4096 .f32 := addf v25 v31
  have v33 : FVec Ideal S512x1 .f32 := extractStridedSlice S512x1 ![0, 2] v17 slices_S512x3_o0_2_S512x1
  have v34 : FVec Ideal S1x4096 .f32 := extractStridedSlice S1x4096 ![2, 0] v1 slices_S3x4096_o2_0_S1x4096
  have v35 : FVec Ideal S512x4096 .f32 := broadcastTo S512x4096 v33 broadcasts_S512x1_S512x4096
  have v36 : FVec Ideal S512x4096 .f32 := broadcastTo S512x4096 v34 broadcasts_S1x4096_S512x4096
  have v37 : FVec Ideal S512x4096 .f32 := subf v35 v36
  have v38 : FVec Ideal S512x4096 .f32 := mulf v37 v37
  addf v32 v38

/-- Column `d` of the tile spread along the lanes reads, at `(r, j)`, coordinate `d` of the tile's point `r`. -/
theorem col_apply (v16 : Vec Ideal S1x512x3 .f32) (o : ℕ) (hs : S512x3.Slices ![0, o] S512x1)
    (hb : S512x1.Broadcasts S512x4096) (d : Fin 3) (hd : d.val = o) (r : Fin 512) (j : Fin 4096) :
    broadcastTo S512x4096
        (extractStridedSlice S512x1 ![0, o] (shapeCast S512x3 v16 shapeCasts_S1x512x3_S512x3) hs) hb (ix2 r j)
      = v16 (ix3 0 r d) := by
  refine (broadcastTo_a1_ab_apply _ hb r j).trans ?_
  refine (slice2_axis1_apply o _ hs r (0 : Fin 1) d (by rw [hd]; rfl)).trans ?_
  exact shapeCast_1ab_ab_apply v16 _ r d

/-- Row `d` of the second cloud spread along the rows reads, at `(r, j)`, coordinate `d` of the cloud's point `j`. -/
theorem row_apply (v0 : Vec Ideal S1x3x4096 .f32) (o : ℕ) (hs : S3x4096.Slices ![o, 0] S1x4096)
    (hb : S1x4096.Broadcasts S512x4096) (d : Fin 3) (hd : d.val = o) (r : Fin 512) (j : Fin 4096) :
    broadcastTo S512x4096
        (extractStridedSlice S1x4096 ![o, 0] (shapeCast S3x4096 v0 shapeCasts_S1x3x4096_S3x4096) hs) hb (ix2 r j)
      = v0 (ix3 0 d j) := by
  refine (broadcastTo_1b_ab_apply _ hb r j).trans ?_
  refine (slice2_axis0_apply o _ hs (0 : Fin 1) j d (by rw [hd]; rfl)).trans ?_
  exact shapeCast_1ab_ab_apply v0 _ d j

/-- The accumulated array at `(r, j)` is the squared distance from the tile's point `r` to the cloud's point `j`. -/
theorem entry_apply (v0 : Vec Ideal S1x3x4096 .f32) (v16 : Vec Ideal S1x512x3 .f32) (r : Fin 512) (j : Fin 4096) :
    sqArr v0 v16 (ix2 r j) = Cert.Chamfer.sqDist (fun d => v16 (ix3 0 r d)) (fun d => v0 (ix3 0 d j)) := by
  unfold sqArr
  simp only [addf_apply, mulf_apply, subf_apply, broadcast_apply]
  rw [col_apply v16 0 _ _ 0 rfl r j, col_apply v16 1 _ _ 1 rfl r j, col_apply v16 2 _ _ 2 rfl r j,
    row_apply v0 0 _ _ 0 rfl r j, row_apply v0 1 _ _ 1 rfl r j, row_apply v0 2 _ _ 2 rfl r j]
  have hz : (Scalar.ofBits (F := Ideal) .f32 0x00000000#32) = 0 := Consts.ofBits_zero
  rw [hz, zero_add]
  rfl

/-- The minimum along the lanes, started from the word of +∞: at row `r`, the least of the row's 4096 entries. -/
theorem rowmin_apply (src : FVec Ideal S512x4096 .f32) (h : S512x4096.Reduces [1] S512) (hφ : FKind.Formats .f32)
    (hacc : (0x7F800000#32 : BitVec 32) = FKind.minimumf.neutral .f32 hφ) (r : Fin 512) :
    multiReduction (F := Ideal) .minimumf [1] S512 src 0x7F800000#32 h hφ hacc (ix1 r)
      = (Finset.univ : Finset (Fin 4096)).fold min ⊤ (fun j => src (ix2 r j)) := by
  refine (multiReduction_minimumf_eq_fold src _ h hφ hacc (ix1 r)).trans ?_
  refine (h.fold_filter_drop_single _ _ src (ix1 r)).trans ?_
  have hl : ∀ k : Fin 4096, h.lift (ix1 r) k = ix2 r k := fun k => funext fun c => Fin.ext (by
    match c with
    | ⟨0, _⟩ => rfl
    | ⟨1, _⟩ => rfl)
  have hsrc : (src ∘ h.lift (ix1 r)) = fun j : Fin 4096 => src (ix2 r j) := funext fun k => congrArg src (hl k)
  show (Finset.univ : Finset (Fin 4096)).fold min (Ideal.ofBits .f32 0x7F800000#32) (src ∘ h.lift (ix1 r)) = _
  rw [hsrc, Consts.ofBits_inf]
  rfl

/-- The sum along the rows of a one-column array, started from the zero word: the sum of the column's 512 entries. -/
theorem colsum_apply (x : FVec Ideal S512x1 .f32) (h : S512x1.Reduces [0] S1) (hφ : FKind.Formats .f32)
    (hacc : (0x00000000#32 : BitVec 32) = FKind.add.neutral .f32 hφ) (q : Fin 1) :
    multiReduction (F := Ideal) .add [0] S1 x 0x00000000#32 h hφ hacc (ix1 q) = ∑ r : Fin 512, x (ix2 r (0 : Fin 1)) := by
  refine (Ideal.multiReduction_add_single x _ h hφ hacc (ix1 q)).trans ?_
  obtain rfl : q = 0 := Subsingleton.elim _ _
  have hl : ∀ k : Fin 512, h.lift (ix1 (0 : Fin 1)) k = ix2 k (0 : Fin 1) := fun k => funext fun c => Fin.ext (by
    match c with
    | ⟨0, _⟩ => rfl
    | ⟨1, _⟩ => rfl)
  exact Finset.sum_congr rfl fun k _ => congrArg x (hl k)

/-- One trip's new carry: the old carry plus the sum, over the tile's 512 points, of the least squared distance from the
    point to a point of the second cloud. -/
theorem pay2_apply (v0 : Vec Ideal S1x3x4096 .f32) (arg6 : FVec Ideal S1x1 .f32) (v16 : Vec Ideal S1x512x3 .f32) (i : S1x1.Idx) :
    k0_pay2 (F := Ideal) v0 arg6 v16 i
      = arg6 i + ∑ r : Fin 512, Cert.Chamfer.nearest (fun d => v16 (ix3 0 r d)) (fun j d => v0 (ix3 0 d j)) := by
  obtain ⟨p, q, rfl⟩ : ∃ (p q : Fin 1), i = ix2 p q := ⟨i 0, i 1, eq_ix2 i⟩
  have e : k0_pay2 (F := Ideal) v0 arg6 v16
      = addf arg6 (shapeCast S1x1
          (multiReduction (F := Ideal) .add [0] S1
            (shapeCast S512x1
              (multiReduction (F := Ideal) .minimumf [1] S512 (sqArr v0 v16) 0x7F800000#32 reduces_S512x4096_S512 (.inl rfl) rfl)
              shapeCasts_S512_S512x1)
            0x00000000#32 reduces_S512x1_S1 (.inl rfl) rfl)
          shapeCasts_S1_S1x1) := rfl
  rw [e, addf_apply]
  congr 1
  refine (shapeCast_a_1a_apply _ _ p q).trans ?_
  refine (colsum_apply _ _ _ _ q).trans ?_
  refine Finset.sum_congr rfl fun r _ => ?_
  refine (shapeCast_a_a1_apply _ _ r (0 : Fin 1)).trans ?_
  refine (rowmin_apply _ _ _ _ r).trans ?_
  unfold Cert.Chamfer.nearest
  exact congrArg (fun f => (Finset.univ : Finset (Fin 4096)).fold min ⊤ f) (funext fun j => entry_apply v0 v16 r j)

end Cert.Chamfer.Payload

end
-- ==== Proof.HostOps.lean ====
/- The lines of the program around its region, read at an index.

   Before the region the second cloud is transposed, [8,4096,3] to [8,3,4096] (the coordinates move to the middle
   axis), and the eight weights are recast as an [8,1,1] array; both only move entries, so each entry of the result
   is one entry of the argument. After the region its [8,1,1] output is recast as [8], summed from the zero word, and
   the sum divided by the word of 8.0: the quotient of the sum of the eight entries by that word. -/
import proofs.«170627_j24790551233433_2_alg».proof.Proof.Gen.KernelIdeal.Frame
import proofs.«170627_j24790551233433_2_alg».proof.Proof.Spec
import proofs.«170627_j24790551233433_2_alg».proof.Proof.Consts
import Idealize.ShloMosaic.Lib.StableHlo.Run
import Idealize.ShloMosaic.Lib.ValueLayout
import Idealize.ShloMosaic.Lib.Pipeline.Value
import Idealize.ShloMosaic.PureOps.Ideal.Laws

noncomputable section

open scoped BigOperators

namespace Cert.Chamfer.HostOps

open Cert.KernelIdeal Cert.KernelIdeal.Gen Idealize.ShloMosaic Idealize.ShloMosaic.ValueIdx Idealize.ShloMosaic.TcCoe

variable (m : (ℓ : Loc nD τ sig) → Buf (Elt Ideal) ℓ)

/-! ## Rank-1 indices and the two recasts -/

/-- A rank-1 index is its one coordinate. -/
def idxEquiv1 {n : Nat} : (⟨1, ![n]⟩ : Shape).Idx ≃ Fin n where
  toFun i := i 0
  invFun := ix1
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ b : Fin n, f (ix1 b) :=
  (Equiv.sum_comp (idxEquiv1 (n := n)).symm f).symm

/-- An [8] array recast as [8,1,1] reads, at (b, 0, 0), the operand at b: both have row-major position b. -/
theorem cast_8_811_apply (x : S8.Idx → EReal) (b : Fin 8) :
    shapeCast S8x1x1 x shapeCasts_S8_S8x1x1 (ix3 b 0 0) = x (ix1 b) := by
  refine shapeCast_apply (s := S8) (t := S8x1x1) x shapeCasts_S8_S8x1x1 (ix3 b 0 0) (ix1 b) ?_
  rw [Shape.rowMajor_val_one, Shape.rowMajor_val_three]
  show b.val = (b.val * 1 + 0) * 1 + 0
  omega

/-- An [8,1,1] array recast as [8] reads, at b, the operand at (b, 0, 0). -/
theorem cast_811_8_apply (W : S8x1x1.Idx → EReal) (b : Fin 8) :
    shapeCast S8 W shapeCasts_S8x1x1_S8 (ix1 b) = W (ix3 b 0 0) := by
  refine shapeCast_apply (s := S8x1x1) (t := S8) W shapeCasts_S8x1x1_S8 (ix1 b) (ix3 b 0 0) ?_
  rw [Shape.rowMajor_val_one, Shape.rowMajor_val_three]
  show (b.val * 1 + 0) * 1 + 0 = b.val
  omega

/-! ## The lines before the region -/

/-- The second cloud as the region finds it is the transpose of the argument. -/
theorem V_v0 (c : Dev nD) :
    (V m c main_v0 : S8x3x4096.Idx → EReal)
      = transpose S8x3x4096 [0, 2, 1] (m ((c : Thread nD τ).loc main_arg1) : S8x4096x3.Idx → EReal)
          transposes_S8x4096x3_S8x3x4096_0_2_1 := by
  show StableHlo.after hostOps0 (fun b => m (c, b)) (Proc.devRef .tc main_v0) = _
  after_results

/-- The weights as the region finds them are the argument recast. -/
theorem V_v1 (c : Dev nD) :
    (V m c main_v1 : S8x1x1.Idx → EReal)
      = fun i => shapeCast S8x1x1 (m ((c : Thread nD τ).loc main_arg2) : S8.Idx → EReal) shapeCasts_S8_S8x1x1 i := by
  show StableHlo.after hostOps0 (fun b => m (c, b)) (Proc.devRef .tc main_v1) = _
  after_results
  rfl

/-- The second cloud as the region finds it: transposed, coordinates on the middle axis. -/
theorem V_v0_apply (c : Dev nD) (b : Fin 8) (d : Fin 3) (j : Fin 4096) :
    (V m c main_v0 : S8x3x4096.Idx → EReal) (ix3 b d j) = (m ((c : Thread nD τ).loc main_arg1) : S8x4096x3.Idx → EReal) (ix3 b j d) :=
  (congrFun (V_v0 m c) (ix3 b d j)).trans
    (transpose_ix3_021_apply (m ((c : Thread nD τ).loc main_arg1) : S8x4096x3.Idx → EReal)
      transposes_S8x4096x3_S8x3x4096_0_2_1 b d j)

/-- The weights as the region finds them: one per batch, as an [8,1,1] array. -/
theorem V_v1_apply (c : Dev nD) (b : Fin 8) :
    (V m c main_v1 : S8x1x1.Idx → EReal) (ix3 b 0 0) = (m ((c : Thread nD τ).loc main_arg2) : S8.Idx → EReal) (ix1 b) :=
  (congrFun (V_v1 m c) (ix3 b 0 0)).trans
    (cast_8_811_apply (m ((c : Thread nD τ).loc main_arg2) : S8.Idx → EReal) b)

/-! ## The lines after the region -/

/-- The lines after the region as a function of the region's output W: the recast to [8], the sum from the zero
    word over the one axis (into rank 0, so the sum over every index), the quotient by the word of 8.0. The zero
    word is 0, and a sum over the rank-1 indices of the recast is the sum over b of W at (b, 0, 0). -/
theorem tail_fn (W : S8x1x1.Idx → EReal) (j : S_.Idx) :
    Host.divf (F := Ideal)
      (Host.reduceAdd (F := Ideal) (fun i => shapeCast S8 W shapeCasts_S8x1x1_S8 i : S8.Idx → EReal)
        (constant S_ .f32 0x00000000#32) reducesTo_S8_S_d0 h_S_)
      (constant S_ .f32 0x41000000#32) j
      = Ideal.div (∑ b : Fin 8, W (ix3 b 0 0)) (Ideal.ofBits .f32 0x41000000#32) := by
  show Ideal.div (Ideal.hostReduceAdd reducesTo_S8_S_d0 (fun i => shapeCast S8 W shapeCasts_S8x1x1_S8 i)
    (Ideal.ofBits .f32 0x00000000#32) j) (Ideal.ofBits .f32 0x41000000#32) = _
  rw [Ideal.hostReduceAdd_total reducesTo_S8_S_d0 (fun b => b.elim0), Consts.ofBits_zero, zero_add]
  congr 1
  refine (sum_idx1 (n := 8) (fun i => shapeCast S8 W shapeCasts_S8x1x1_S8 i)).trans ?_
  exact Finset.sum_congr rfl (fun b _ => cast_811_8_apply W b)

/-- The lines after the region: the eight entries of the region's output summed, divided by the word of 8.0. -/
theorem tail_eq (c : Dev nD) (X : S8x1x1.Idx → EReal)
    (hX : ((dats m 0 c).arrAt 3 cfg0.N : S8x1x1.Idx → EReal) = X) :
    (Pipeline.afterTail₀ cfgs (dats m) 0 (V0 m) [hostOps1] c main_v5 : S_.Idx → EReal)
      = fun _ => Ideal.div (∑ b : Fin 8, X (ix3 b 0 0)) (Ideal.ofBits .f32 0x41000000#32) := by
  -- the region's output array (window 3) is what the lines after it read
  have hW : Pipeline.withArrays (cfgs 0).spec c (V0 m c) (fun w => (dats m 0 c).arrAt w (cfgs 0).N)
      (Proc.devRef .tc main_v2) = X :=
    (Pipeline.withArrays_arr spec0 launch0.win.arr_inj c _ _ 3).trans hX
  unfold Pipeline.afterTail₀
  show StableHlo.after hostOps1 _ (Proc.devRef .tc main_v5) = _
  after_results
  rw [hW]
  exact funext (tail_fn X)

end Cert.Chamfer.HostOps

end
-- ==== Proof.KernelValue.lean ====
/- The kernel program's result, as the loss of its argument arrays.

   At grid point `t` the body sees batch `t`: the first cloud's slab, the second cloud's slab transposed, the weight.
   Tile by tile its carried value is the specification's `carried` (each tile adds the 512 rows' nearest squared
   distances), so the entry it stores is the batch's weighed loss; the output array therefore holds the eight batches'
   losses, and the lines after the region add them and divide by eight. -/
import proofs.«170627_j24790551233433_2_alg».proof.Proof.KernelBlocks
import proofs.«170627_j24790551233433_2_alg».proof.Proof.Payload
import proofs.«170627_j24790551233433_2_alg».proof.Proof.HostOps
import proofs.«170627_j24790551233433_2_alg».proof.Proof.Spec

noncomputable section

open scoped BigOperators

namespace Cert.Chamfer.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.Chamfer.Blocks

variable (m : (ℓ : Loc nD τ sig) → Buf (Elt Ideal) ℓ) (ρ : Dev nD → PrngReg)

/-- The three argument arrays at launch. -/
abbrev cloudA (c : Dev nD) : Clouds := m ((c : Thread nD τ).loc main_arg0)
abbrev cloudO (c : Dev nD) : Clouds := m ((c : Thread nD τ).loc main_arg1)
abbrev weights (c : Dev nD) : Weights := m ((c : Thread nD τ).loc main_arg2)

/-- The loop walks exactly eight tiles. -/
theorem trips_eq : k0_t1_loop.trips = 8 := by decide +kernel

/-- For blocks whose entries are batch `b`'s (the first cloud's rows, the second cloud's transposed), the carried
    value before tile `n` is the sum of the first `n` tiles of batch `b`. -/
theorem carried_of_blocks (a o : Clouds) (b : Fin 8) (x0 : Vec Ideal S1x4096x3 .f32) (x1 : Vec Ideal S1x3x4096 .f32)
    (h0 : ∀ (k : Fin 4096) (d : Fin 3), x0 (ix3 (0 : Fin 1) k d) = a (ix3 b k d))
    (h1 : ∀ (d : Fin 3) (j : Fin 4096), x1 (ix3 (0 : Fin 1) d j) = o (ix3 b j d)) (i : S1x1.Idx) (n : ℕ) (hn : n ≤ 8) :
    Body.carriedAt x0 x1 (k0_pay1 (F := Ideal)) n i = carried a o b n := by
  induction n with
  | zero => exact Payload.pay1_apply i
  | succ n ih =>
    have hn8 : n < 8 := hn
    have htr : n < k0_t1_loop.trips := by rw [trips_eq]; exact hn8
    rw [Body.carriedAt, dif_pos htr]
    refine (Payload.pay2_apply x1 _ _ i).trans ?_
    rw [ih (Nat.le_of_lt hn8), carried, dif_pos hn8]
    congr 1
    unfold tileSum
    refine Finset.sum_congr rfl fun r _ => ?_
    have hr : r.val < 512 := r.isLt
    congr 1
    · funext d
      refine (tile_apply x0 ⟨n, htr⟩ r d (by show 512 * n + r.val < 4096; omega)).trans ?_
      exact h0 _ d
    · funext j d
      exact h1 d j

/-- For such blocks, and the block holding batch `b`'s weight, the entry the body stores is batch `b`'s weighed loss. -/
theorem stored_of_blocks (a o : Clouds) (w : Weights) (b : Fin 8) (x0 : Vec Ideal S1x4096x3 .f32) (x1 : Vec Ideal S1x3x4096 .f32)
    (x2 : Vec Ideal S1x1x1 .f32)
    (h0 : ∀ (k : Fin 4096) (d : Fin 3), x0 (ix3 (0 : Fin 1) k d) = a (ix3 b k d))
    (h1 : ∀ (d : Fin 3) (j : Fin 4096), x1 (ix3 (0 : Fin 1) d j) = o (ix3 b j d))
    (h2 : x2 (ix3 (0 : Fin 1) (0 : Fin 1) (0 : Fin 1)) = w (ix1 b)) :
    k0_pay3 (F := Ideal) (Body.carriedAt x0 x1 (k0_pay1 (F := Ideal)) k0_t1_loop.trips) x2 = fun _ => batchLoss a o w b := by
  funext i
  refine (Payload.pay3_apply _ x2 i).trans ?_
  rw [trips_eq, carried_of_blocks a o b x0 x1 h0 h1 _ 8 (Nat.le_refl 8), h2]
  rfl

/-- What the body leaves at point `t`: batch `t`'s weighed loss. -/
theorem outsAt_eq (c : Dev nD) (t : Fin cfg0.N) :
    outsAt0 m c t = fun _ => batchLoss (cloudA m c) (cloudO m c) (weights m c) (batchOf t) := by
  unfold outsAt0
  refine (Body.out_eq c _ _ _ _ _ _ _ _ _ (iblk m c 0 t) (iblk m c 1 t) (iblk m c 2 t)).trans ?_
  exact stored_of_blocks (cloudA m c) (cloudO m c) (weights m c) (batchOf t) (iblk m c 0 t) (iblk m c 1 t) (iblk m c 2 t)
    (fun k d => (iblk0_apply m c t k d).trans (congrFun (V_main_arg0 m c) _))
    (fun d j => (iblk1_apply m c t d j).trans (HostOps.V_v0_apply m c (batchOf t) d j))
    ((iblk2_apply m c t).trans (HostOps.V_v1_apply m c (batchOf t)))

/-- The output array after the region: the eight batches' weighed losses. -/
theorem final (c : Dev nD) :
    (dats m 0 c).arrAt 3 cfg0.N = (fun i : S8x1x1.Idx => batchLoss (cloudA m c) (cloudO m c) (weights m c) (i 0)) :=
  Blocks.final m c _ (outsAt_eq m c)

/-- The result buffer after the lines that follow the region: the loss. -/
theorem result_eq (c : Dev nD) :
    (Pipeline.afterTail₀ cfgs (dats m) 0 (V0 m) [hostOps1] c main_v5 : S_.Idx → EReal)
      = fun _ => loss (cloudA m c) (cloudO m c) (weights m c) :=
  HostOps.tail_eq m c _ (final m c)

/-- The run, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v5) = (fun _ => loss (cloudA m c) (cloudO m c) (weights m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Chamfer.Kernel

end
-- ==== Proof.lean ====
/- A Chamfer loss in one direction: for each of eight batches, the mean over the 4096 points of one cloud of the squared
   distance to the nearest point of the other cloud, weighed, then averaged over the batches.

   The kernel takes the squared distance as the sum of the squared coordinate differences, the minimum over the other
   cloud row by row, and the mean as a sum over eight tiles of 512 rows times 1/4096. The reference expands the squared
   distance, |a|² + |b|² − 2 a·b, and divides the whole sum by 4096. On finite inputs the two squared distances are
   the same real number, so the minima, the sums and the means agree; 1/4096 is a power of two, so the product with
   it is the quotient by 4096 on every extended real. Both programs then take the same mean over the batches. -/
import proofs.«170627_j24790551233433_2_alg».proof.Defs
import proofs.«170627_j24790551233433_2_alg».proof.Proof.Gen.Kernel
import proofs.«170627_j24790551233433_2_alg».proof.Proof.Gen.Kernel.Frame
import proofs.«170627_j24790551233433_2_alg».proof.Proof.Gen.KernelIdeal
import proofs.«170627_j24790551233433_2_alg».proof.Proof.Gen.KernelIdeal.Frame
import proofs.«170627_j24790551233433_2_alg».proof.Proof.Gen.ReferenceIdeal
import proofs.«170627_j24790551233433_2_alg».proof.Proof.Gen.ReferenceIdeal.Run
import proofs.«170627_j24790551233433_2_alg».proof.Proof.Gen.ReferenceIdeal.Read
import proofs.«170627_j24790551233433_2_alg».proof.Proof.Gen.Pre_finite_inputs
import proofs.«170627_j24790551233433_2_alg».proof.Proof.Algebra
import proofs.«170627_j24790551233433_2_alg».proof.Proof.Finite
import proofs.«170627_j24790551233433_2_alg».proof.Proof.RefValue
import proofs.«170627_j24790551233433_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- The kernel's result is the loss with the squared distances differenced and the mean taken tile by tile; the
    reference's is the loss with the squared distances expanded and the mean a quotient. On clouds of finite
    coordinates the two are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.Chamfer.loss (Cert.Chamfer.Kernel.cloudA m c) (Cert.Chamfer.Kernel.cloudO m c)
    (Cert.Chamfer.Kernel.weights m c)), Cert.Chamfer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Chamfer.Ref.result_eq, (hagree c).1, (hagree c).2.1, (hagree c).2.2]
  obtain ⟨ha, ho⟩ := Cert.Chamfer.Finite.real_of_pre _ _ _ (hpre c)
  funext _
  exact Cert.Chamfer.lossExp_eq_loss _ _ _ ha ho

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
